-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S20000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S4000x128 : Shape := ⟨2, ![4000, 128]⟩

abbrev nBuf : Space → Nat
  | .hbm => 46
  | .vmem => 20
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S20000x128, .bf16⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .bf16⟩
  | .hbm, ⟨22, _⟩ => ⟨S640000x128, .f32⟩
  | .hbm, ⟨23, _⟩ => ⟨S_, .f32⟩
  | .hbm, ⟨24, _⟩ => ⟨S20000x128, .f32⟩
  | .hbm, ⟨25, _⟩ => ⟨S640000x1, .i32⟩
  | .hbm, ⟨26, _⟩ => ⟨S20000x128, .f32⟩
  | .hbm, ⟨27, _⟩ => ⟨S1x128, .f32⟩
  | .hbm, ⟨28, _⟩ => ⟨S20000x128, .f32⟩
  | .hbm, ⟨29, _⟩ => ⟨S20000x128, .bf16⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .bf16⟩
  | .hbm, ⟨39, _⟩ => ⟨S640000x128, .f32⟩
  | .hbm, ⟨40, _⟩ => ⟨S_, .f32⟩
  | .hbm, ⟨41, _⟩ => ⟨S20000x128, .f32⟩
  | .hbm, ⟨42, _⟩ => ⟨S640000x1, .i32⟩
  | .hbm, ⟨43, _⟩ => ⟨S20000x128, .f32⟩
  | .hbm, ⟨44, _⟩ => ⟨S1x128, .f32⟩
  | .hbm, ⟨45, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S20000x128.size a
  hwx0_1 : ∀ i : grid0.Coords, EltTy.bits .f32 = 32 ∨ (Rect.block (s := S20000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S20000x128.size a
  hwx0_5 : ∀ i : grid0.Coords, EltTy.bits .f32 = 32 ∨ (Rect.block (s := S20000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S20000x128.size a
  hwx0_6 : ∀ i : grid0.Coords, EltTy.bits .bf16 = 32 ∨ (Rect.block (s := S20000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S20000x128.size a
  hwx1_1 : ∀ i : grid1.Coords, EltTy.bits .f32 = 32 ∨ (Rect.block (s := S20000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S20000x128.size a
  hwx1_5 : ∀ i : grid1.Coords, EltTy.bits .f32 = 32 ∨ (Rect.block (s := S20000x128) S4000x128.size (cc1_transform_5 i) (hinb1_5 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S20000x128, .f32⟩
  | .hbm, ⟨23, _⟩ => ⟨S640000x1, .i32⟩
  | .hbm, ⟨24, _⟩ => ⟨S20000x128, .f32⟩
  | .hbm, ⟨25, _⟩ => ⟨S20000x128, .f32⟩
  | .hbm, ⟨26, _⟩ => ⟨S1x128, .f32⟩
  | .hbm, ⟨27, _⟩ => ⟨S20000x128, .f32⟩
  | .hbm, ⟨28, _⟩ => ⟨S20000x128, .f32⟩
  | .hbm, ⟨29, _⟩ => ⟨S20000x128, .f32⟩
  | .hbm, ⟨30, _⟩ => ⟨S20000x128, .f32⟩
  | .hbm, ⟨31, _⟩ => ⟨S_, .f32⟩
  | .hbm, ⟨32, _⟩ => ⟨S20000x128, .f32⟩
  | .hbm, ⟨33, _⟩ => ⟨S20000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S20000x128, .f32⟩
  | .hbm, ⟨45, _⟩ => ⟨S640000x1, .i32⟩
  | .hbm, ⟨46, _⟩ => ⟨S20000x128, .f32⟩
  | .hbm, ⟨47, _⟩ => ⟨S20000x128, .f32⟩
  | .hbm, ⟨48, _⟩ => ⟨S1x128, .f32⟩
  | .hbm, ⟨49, _⟩ => ⟨S20000x128, .f32⟩
  | .hbm, ⟨50, _⟩ => ⟨S20000x128, .f32⟩
  | .hbm, ⟨51, _⟩ => ⟨S20000x128, .f32⟩
  | .hbm, ⟨52, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.KernelRun.lean ====
/-
  The idealized kernel's run with its result named.

  The program is a stretch of host operations, the first layer's grid, a second stretch of host operations and the
  second layer's grid. Every weakly fair execution ends with every buffer at the contents the last boundary of that
  chain states; read at the result's buffer this is what the second grid's write-backs leave there, and at an argument's
  buffer the launch contents.
-/
import proofs.«114487_j60971355734041_2_alg».proof.Proof.Gen.KernelIdeal.Frame

set_option maxRecDepth 16384

noncomputable section

namespace Cert.KernelIdeal.GraphConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, faulting nowhere, with the result's buffer at the last boundary's contents
    and the arguments as launched. -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.GraphConv

end
-- ==== Proof.Payload.lean ====
/-
  The two kernel bodies at an entry of their output block, on the extended reals.

  A body holds a block of 4000 node rows of the features `x` and of the aggregate `a`, the two 128 × 128 weight
  matrices and the bias as a 1 × 128 row. A change of float format is the identity here and a matrix product into a
  zero accumulator is the plain sum over the contracted column, so entry `(p, q)` of what the second body stores is
  `(∑ₖ a[p, k] · W_rel[k, q] + b[0, q]) + ∑ₖ x[p, k] · W_root[k, q]`; the first body stores the maximum of that and zero,
  twice (once per output format).
-/
import proofs.«114487_j60971355734041_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.GraphConv

open Idealize.ShloMosaic Idealize.ShloMosaic.ValueIdx Cert.KernelIdeal Cert.KernelIdeal.Gen
open scoped BigOperators

theorem lhs_row (i : S4000x128.Idx) (u : (dot_S4000x128_S128x128_S4000x128_1_0_0_1_n_n).contr.Idx) :
    ((dot_S4000x128_S128x128_S4000x128_1_0_0_1_n_n).lhsIdx i u 0).val = (i 0).val := by
  unfold DotDims.lhsIdx
  rw [dif_neg (show ¬(0 : Fin S4000x128.rank) ∈ (dot_S4000x128_S128x128_S4000x128_1_0_0_1_n_n).lhsBatch by decide),
    dif_pos (show (0 : Fin S4000x128.rank) ∈ (dot_S4000x128_S128x128_S4000x128_1_0_0_1_n_n).lhsNonContracting by decide)]
  rfl

theorem rhs_col (i : S4000x128.Idx) (u : (dot_S4000x128_S128x128_S4000x128_1_0_0_1_n_n).contr.Idx) :
    ((dot_S4000x128_S128x128_S4000x128_1_0_0_1_n_n).rhsIdx i u 1).val = (i 1).val := by
  unfold DotDims.rhsIdx
  rw [dif_neg (show ¬(1 : Fin S128x128.rank) ∈ (dot_S4000x128_S128x128_S4000x128_1_0_0_1_n_n).rhsBatch by decide),
    dif_pos (show (1 : Fin S128x128.rank) ∈ (dot_S4000x128_S128x128_S4000x128_1_0_0_1_n_n).rhsNonContracting by decide)]
  rfl

/-- A block product into a zero accumulator, at entry `(p, q)`: row `p` of the left factor against column `q` of
    the right one, summed over the 128 contracted columns. -/
theorem matmul_at {φ₁ φ₂ : FTy} (lhs : FVec Ideal S4000x128 φ₁) (rhs : FVec Ideal S128x128 φ₂) (p : Fin 4000) (q : Fin 128) :
    matmul (F := Ideal) dot_S4000x128_S128x128_S4000x128_1_0_0_1_n_n none lhs rhs (constant S4000x128 .f32 0x00000000#32) (ix2 p q)
      = ∑ k : Fin 128, lhs (ix2 p k) * rhs (ix2 k q) := by
  show FloatOps.matmul dot_S4000x128_S128x128_S4000x128_1_0_0_1_n_n none lhs rhs (constant S4000x128 .f32 0x00000000#32) (ix2 p q) = _
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : (dot_S4000x128_S128x128_S4000x128_1_0_0_1_n_n).lhsIdx (ix2 p q)
      ((contrEquiv1 dot_S4000x128_S128x128_S4000x128_1_0_0_1_n_n 128 rfl rfl).symm k) = ix2 p k := funext fun a => Fin.ext (by
    match a with
    | ⟨0, _⟩ => exact lhs_row _ _
    | ⟨1, _⟩ => exact ((dot_S4000x128_S128x128_S4000x128_1_0_0_1_n_n).lhsIdx_val_of_single rfl _ _).trans hk)
  have er : (dot_S4000x128_S128x128_S4000x128_1_0_0_1_n_n).rhsIdx (ix2 p q)
      ((contrEquiv1 dot_S4000x128_S128x128_S4000x128_1_0_0_1_n_n 128 rfl rfl).symm k) = ix2 k q := funext fun a => Fin.ext (by
    match a with
    | ⟨0, _⟩ => exact ((dot_S4000x128_S128x128_S4000x128_1_0_0_1_n_n).rhsIdx_val_of_single rfl _ _).trans hk
    | ⟨1, _⟩ => exact rhs_col _ _)
  rw [el, er]

/-- The bias row broadcast over the block's rows reads `b[0, q]` at every row. -/
theorem bias_at (v : Vec Ideal S1x128 .f32) (p : Fin 4000) (q : Fin 128) :
    broadcastTo S4000x128 (shapeCast S1x128 v shapeCasts_S1x128_S1x128) broadcasts_S1x128_S4000x128 (ix2 p q)
      = v (ix2 (0 : Fin 1) q) := by
  rw [shapeCast_self]
  exact broadcastTo_apply v _ (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- Entry `(p, q)` of a layer over one block of rows. -/
def blockLin (x a : Vec Ideal S4000x128 .f32) (wrel wroot : Vec Ideal S128x128 .f32) (b : Vec Ideal S1x128 .f32)
    (p : Fin 4000) (q : Fin 128) : EReal :=
  ((∑ k : Fin 128, a (ix2 p k) * wrel (ix2 k q)) + b (ix2 (0 : Fin 1) q)) + ∑ k : Fin 128, x (ix2 p k) * wroot (ix2 k q)

/-- What the second body stores. -/
theorem pay_second (x a : Vec Ideal S4000x128 .f32) (wrel wroot : Vec Ideal S128x128 .f32) (b : Vec Ideal S1x128 .f32)
    (p : Fin 4000) (q : Fin 128) :
    k1_pay1 (F := Ideal) x a wrel wroot b (ix2 p q) = blockLin x a wrel wroot b p q := by
  unfold k1_pay1
  show (matmul (F := Ideal) dot_S4000x128_S128x128_S4000x128_1_0_0_1_n_n none _ _ (constant S4000x128 .f32 0x00000000#32) (ix2 p q)
      + broadcastTo S4000x128 (shapeCast S1x128 b shapeCasts_S1x128_S1x128) broadcasts_S1x128_S4000x128 (ix2 p q))
      + matmul (F := Ideal) dot_S4000x128_S128x128_S4000x128_1_0_0_1_n_n none _ _ (constant S4000x128 .f32 0x00000000#32) (ix2 p q) = _
  rw [matmul_at, matmul_at, bias_at, shapeCast_self, shapeCast_self]
  rfl

/-- What the first body stores into its full-precision output: the rectified layer. -/
theorem pay_first (x a : Vec Ideal S4000x128 .f32) (wrel wroot : Vec Ideal S128x128 .f32) (b : Vec Ideal S1x128 .f32)
    (p : Fin 4000) (q : Fin 128) :
    k0_pay1 (F := Ideal) x a wrel wroot b (ix2 p q) = max (blockLin x a wrel wroot b p q) 0 := by
  unfold k0_pay1
  show max ((matmul (F := Ideal) dot_S4000x128_S128x128_S4000x128_1_0_0_1_n_n none _ _ (constant S4000x128 .f32 0x00000000#32) (ix2 p q)
      + broadcastTo S4000x128 (shapeCast S1x128 b shapeCasts_S1x128_S1x128) broadcasts_S1x128_S4000x128 (ix2 p q))
      + matmul (F := Ideal) dot_S4000x128_S128x128_S4000x128_1_0_0_1_n_n none _ _ (constant S4000x128 .f32 0x00000000#32) (ix2 p q))
      (Ideal.ofBits .f32 0x00000000#32) = _
  rw [matmul_at, matmul_at, bias_at, shapeCast_self, Ideal.ofBits_zero_f32]
  rfl

/-- Its half-precision output holds the same numbers. -/
theorem pay_first_half (x a : Vec Ideal S4000x128 .f32) (wrel wroot : Vec Ideal S128x128 .f32) (b : Vec Ideal S1x128 .f32)
    (p : Fin 4000) (q : Fin 128) :
    k0_pay2 (F := Ideal) x a wrel wroot b (ix2 p q) = max (blockLin x a wrel wroot b p q) 0 :=
  pay_first x a wrel wroot b p q

end Cert.KernelIdeal.GraphConv

end
-- ==== Proof.Spec.lean ====
/-
  The function both programs compute, over the extended reals.

  A graph-convolution layer maps node features `f : [20000, 128]` and aggregated neighbour features
  `a : [20000, 128]` to `(a · W_rel + b) + f · W_root`: entry `(r, j)` is
  `(∑ₖ a[r, k] · W_rel[k, j] + b[j]) + ∑ₖ f[r, k] · W_root[k, j]`, the sums over the 128 feature columns.
  The network is two such layers with a rectifier `max(·, 0)` between them; the aggregation `agg` (gather the
  source rows of every edge, add them into the destination rows) is a parameter here: both programs apply
  the same one, to the input features in the first layer and to the hidden features in the second.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx
open scoped BigOperators

/-- Node features: 20000 nodes, 128 columns. -/
abbrev SN : Shape := ⟨2, ![20000, 128]⟩
/-- A weight matrix. -/
abbrev SW : Shape := ⟨2, ![128, 128]⟩
/-- A bias vector. -/
abbrev SB : Shape := ⟨1, ![128]⟩

/-- Entry `(r, j)` of one layer before its activation. -/
def linAt (f a : SN.Idx → EReal) (wrel wroot : SW.Idx → EReal) (b : SB.Idx → EReal) (r : Fin 20000) (j : Fin 128) : EReal :=
  ((∑ k : Fin 128, a (ix2 r k) * wrel (ix2 k j)) + b (ix1 j)) + ∑ k : Fin 128, f (ix2 r k) * wroot (ix2 k j)

/-- One layer before its activation, as an array. -/
def lin (f a : SN.Idx → EReal) (wrel wroot : SW.Idx → EReal) (b : SB.Idx → EReal) : SN.Idx → EReal :=
  fun i => linAt f a wrel wroot b (i 0) (i 1)

theorem lin_ix2 (f a : SN.Idx → EReal) (wrel wroot : SW.Idx → EReal) (b : SB.Idx → EReal) (r : Fin 20000) (j : Fin 128) :
    lin f a wrel wroot b (ix2 r j) = linAt f a wrel wroot b r j := rfl

/-- The rectifier, entry by entry. -/
def relu (y : SN.Idx → EReal) : SN.Idx → EReal := fun i => max (y i) 0

/-- The two-layer network over an aggregation `agg`. -/
def net (agg : (SN.Idx → EReal) → (SN.Idx → EReal)) (x : SN.Idx → EReal)
    (w1rel : SW.Idx → EReal) (b1 : SB.Idx → EReal) (w1root : SW.Idx → EReal)
    (w2rel : SW.Idx → EReal) (b2 : SB.Idx → EReal) (w2root : SW.Idx → EReal) : SN.Idx → EReal :=
  lin (relu (lin x (agg x) w1rel w1root b1)) (agg (relu (lin x (agg x) w1rel w1root b1))) w2rel w2root b2

end Cert.GraphConv

end
-- ==== Proof.Regions.lean ====
/-
  What each grid leaves in its output arrays, as one function of the arrays it was entered with.

  Both grids walk the 20000 node rows in five blocks of 4000. At a point the body sees rows `4000 t … 4000 t + 3999` of
  the features and of the aggregate, and the whole weight matrices and bias row; it stores one block of 4000 rows of
  each output. The stored entry `(p, q)` is the layer's entry `(4000 t + p, q)` of the whole arrays, so each output
  array ends as the layer of the whole arrays: the first grid's two outputs as the rectified layer, the second grid's as
  the plain one.
-/
import proofs.«114487_j60971355734041_2_alg».proof.Proof.Gen.KernelIdeal.Frame
import proofs.«114487_j60971355734041_2_alg».proof.Proof.Payload
import proofs.«114487_j60971355734041_2_alg».proof.Proof.Spec

set_option maxRecDepth 16384

noncomputable section

namespace Cert.KernelIdeal.GraphConv

open Idealize.ShloMosaic Idealize.ShloMosaic.TcCoe Idealize.ShloMosaic.ValueIdx
open Cert.KernelIdeal Cert.KernelIdeal.Gen Cert.GraphConv
open Idealize.SL Idealize.SL.Sem
open Idealize.ShloMosaic.Pipeline (Dat Cfg Window)
open scoped BigOperators

-- the buffers' contents when a grid is entered
variable (V : (c : Dev nD) → (b : Ref sig .tc) → Buf (Elt Ideal) ((c : Thread nD τ).loc b))

theorem hz : (![0, 0] : Fin 2 → Nat) = fun _ => 0 := funext fun a => by fin_cases a <;> rfl

/-- The bias as the kernels hold it, a 1 × 128 row, read as a vector of 128. -/
def biasOf (y : Vec Ideal S1x128 .f32) : SB.Idx → EReal := fun i => y (ix2 (0 : Fin 1) (i 0))

/-! ## The first grid -/

/-- The first layer of the entry arrays, rectified. -/
def G0 (c : Dev nD) : SN.Idx → EReal :=
  relu (lin (V c main_arg0) (V c main_v15) (V c main_arg2) (V c main_arg4) (biasOf (V c main_v16)))

/-- The printed index maps over the grid: the row blocks of the features, the aggregate and both outputs move together,
    every column block is the first, and the weights and the bias stay at their one block. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 4
    ∧ win0_6.index t (0 : Fin 2) = win0_5.index t (0 : Fin 2) ∧ win0_6.index t (1 : Fin 2) = 0 :=
  (by decide +kernel : ∀ t : Fin grid0.N, _)

/-- What point `t` of grid 0 writes back to output 5 is block `t` of `G0`: the block's entry `(p, q)` lands on row
    `4000 · t + p` of the array, the feature and aggregate blocks are the same 4000 rows of their arrays, and the weight and
    bias blocks are the whole arrays. -/
theorem flushed0_5 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨e00, e01, e10, e11, e20, e21, e30, e31, e40, e41, e51, e5le, e60, e61⟩ := idx_facts0 t
  have hp : p.val < 4000 := p.isLt
  have hr : win0_5.index t (0 : Fin 2) * 4000 + p.val < 20000 := by omega
  have E : ((cfg0.win 5).blk t).view.emb (ix2 p q) = ix2 (⟨win0_5.index t (0 : Fin 2) * 4000 + p.val, hr⟩ : Fin 20000) q := by
    funext a; apply Fin.ext
    match a with
    | ⟨0, _⟩ => show win0_5.index t (0 : Fin 2) * 4000 + 1 * p.val = win0_5.index t (0 : Fin 2) * 4000 + p.val; omega
    | ⟨1, _⟩ => show win0_5.index t (1 : Fin 2) * 128 + 1 * q.val = q.val; omega
  have A0 : ∀ k : Fin 128, iblk0 V c 0 t (ix2 p k)
      = V c (Pipeline.arrRef spec0 0) (ix2 (⟨win0_5.index t (0 : Fin 2) * 4000 + p.val, hr⟩ : Fin 20000) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 4000 + 1 * p.val = win0_5.index t (0 : Fin 2) * 4000 + p.val; omega
    | ⟨1, _⟩ => show win0_0.index t (1 : Fin 2) * 128 + 1 * k.val = k.val; omega
  have A1 : ∀ k : Fin 128, iblk0 V c 1 t (ix2 p k)
      = V c (Pipeline.arrRef spec0 1) (ix2 (⟨win0_5.index t (0 : Fin 2) * 4000 + p.val, hr⟩ : Fin 20000) k) := fun k => by
    show V c (Pipeline.arrRef spec0 1) (((cfg0.win 1).blk t).view.emb (ix2 p k)) = _
    refine congrArg _ (funext fun a => Fin.ext ?_)
    match a with
    | ⟨0, _⟩ => show win0_1.index t (0 : Fin 2) * 4000 + 1 * p.val = win0_5.index t (0 : Fin 2) * 4000 + p.val; omega
    | ⟨1, _⟩ => show win0_1.index t (1 : Fin 2) * 128 + 1 * k.val = k.val; omega
  have A2 : ∀ k : Fin 128, iblk0 V c 2 t (ix2 k q) = V c (Pipeline.arrRef spec0 2) (ix2 k q) := fun k => by
    show V c (Pipeline.arrRef spec0 2) (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have A3 : ∀ k : Fin 128, iblk0 V c 3 t (ix2 k q) = V c (Pipeline.arrRef spec0 3) (ix2 k q) := fun k => by
    show V c (Pipeline.arrRef spec0 3) (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have A4 : iblk0 V c 4 t (ix2 (0 : Fin 1) q) = V c (Pipeline.arrRef spec0 4) (ix2 (0 : Fin 1) q) := by
    show V c (Pipeline.arrRef spec0 4) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  show k0_pay1 (iblk0 V c 0 t) (iblk0 V c 1 t) (iblk0 V c 2 t) (iblk0 V c 3 t) (iblk0 V c 4 t) (ix2 p q)
      = G0 V c (((cfg0.win 5).blk t).view.emb (ix2 p q))
  rw [E]
  refine (pay_first _ _ _ _ _ p q).trans ?_
  unfold blockLin
  simp only [A0, A1, A2, A3, A4]
  rfl

/-- An index of the array lies in point `t`'s block of output 5 iff each coordinate lies in the block's range. -/
theorem mem_blk0_5 (t : Fin cfg0.N) (i : S20000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v17_0).slice (win0_5.rect t)).set ↔ _
  rw [View.set_slice_whole, Rect.mem_set_unit]
  exact Iff.rfl

/-- Every block of rows is some point's. -/
theorem idx_onto0_5 : ∀ b : Fin 5, ∃ t : Fin cfg0.N, win0_5.index t = ![b.val, 0] :=
  (by decide +kernel : ∀ b : Fin 5, ∃ t : Fin grid0.N, win0_5.index t = ![b.val, 0])

/-- The five blocks of 4000 rows cover the array: row `r` is in block `r / 4000`. -/
theorem cover0_5 (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ := idx_onto0_5 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- Output 5's array after grid 0. -/
theorem final0_5 (c : Dev nD) : (dat0 V c).arrAt 5 cfg0.N = G0 V c :=
  (dat0 V c).arrAt_eq_of_cover 5 (G0 V c) (fun t _ => flushed0_5 V c t) (cover0_5)

/-- What point `t` of grid 0 writes back to output 6 is block `t` of `G0`: the block's entry `(p, q)` lands on row
    `4000 · t + p` of the array, the feature and aggregate blocks are the same 4000 rows of their arrays, and the weight and
    bias blocks are the whole arrays. -/
theorem flushed0_6 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨e00, e01, e10, e11, e20, e21, e30, e31, e40, e41, e51, e5le, e60, e61⟩ := idx_facts0 t
  have hp : p.val < 4000 := p.isLt
  have hr : win0_5.index t (0 : Fin 2) * 4000 + p.val < 20000 := by omega
  have E : ((cfg0.win 6).blk t).view.emb (ix2 p q) = ix2 (⟨win0_5.index t (0 : Fin 2) * 4000 + p.val, hr⟩ : Fin 20000) q := by
    funext a; apply Fin.ext
    match a with
    | ⟨0, _⟩ => show win0_6.index t (0 : Fin 2) * 4000 + 1 * p.val = win0_5.index t (0 : Fin 2) * 4000 + p.val; omega
    | ⟨1, _⟩ => show win0_6.index t (1 : Fin 2) * 128 + 1 * q.val = q.val; omega
  have A0 : ∀ k : Fin 128, iblk0 V c 0 t (ix2 p k)
      = V c (Pipeline.arrRef spec0 0) (ix2 (⟨win0_5.index t (0 : Fin 2) * 4000 + p.val, hr⟩ : Fin 20000) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 4000 + 1 * p.val = win0_5.index t (0 : Fin 2) * 4000 + p.val; omega
    | ⟨1, _⟩ => show win0_0.index t (1 : Fin 2) * 128 + 1 * k.val = k.val; omega
  have A1 : ∀ k : Fin 128, iblk0 V c 1 t (ix2 p k)
      = V c (Pipeline.arrRef spec0 1) (ix2 (⟨win0_5.index t (0 : Fin 2) * 4000 + p.val, hr⟩ : Fin 20000) k) := fun k => by
    show V c (Pipeline.arrRef spec0 1) (((cfg0.win 1).blk t).view.emb (ix2 p k)) = _
    refine congrArg _ (funext fun a => Fin.ext ?_)
    match a with
    | ⟨0, _⟩ => show win0_1.index t (0 : Fin 2) * 4000 + 1 * p.val = win0_5.index t (0 : Fin 2) * 4000 + p.val; omega
    | ⟨1, _⟩ => show win0_1.index t (1 : Fin 2) * 128 + 1 * k.val = k.val; omega
  have A2 : ∀ k : Fin 128, iblk0 V c 2 t (ix2 k q) = V c (Pipeline.arrRef spec0 2) (ix2 k q) := fun k => by
    show V c (Pipeline.arrRef spec0 2) (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have A3 : ∀ k : Fin 128, iblk0 V c 3 t (ix2 k q) = V c (Pipeline.arrRef spec0 3) (ix2 k q) := fun k => by
    show V c (Pipeline.arrRef spec0 3) (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have A4 : iblk0 V c 4 t (ix2 (0 : Fin 1) q) = V c (Pipeline.arrRef spec0 4) (ix2 (0 : Fin 1) q) := by
    show V c (Pipeline.arrRef spec0 4) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  show k0_pay2 (iblk0 V c 0 t) (iblk0 V c 1 t) (iblk0 V c 2 t) (iblk0 V c 3 t) (iblk0 V c 4 t) (ix2 p q)
      = G0 V c (((cfg0.win 6).blk t).view.emb (ix2 p q))
  rw [E]
  refine (pay_first_half _ _ _ _ _ p q).trans ?_
  unfold blockLin
  simp only [A0, A1, A2, A3, A4]
  rfl

/-- An index of the array lies in point `t`'s block of output 6 iff each coordinate lies in the block's range. -/
theorem mem_blk0_6 (t : Fin cfg0.N) (i : S20000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v17_1).slice (win0_6.rect t)).set ↔ _
  rw [View.set_slice_whole, Rect.mem_set_unit]
  exact Iff.rfl

/-- Every block of rows is some point's. -/
theorem idx_onto0_6 : ∀ b : Fin 5, ∃ t : Fin cfg0.N, win0_6.index t = ![b.val, 0] :=
  (by decide +kernel : ∀ b : Fin 5, ∃ t : Fin grid0.N, win0_6.index t = ![b.val, 0])

/-- The five blocks of 4000 rows cover the array: row `r` is in block `r / 4000`. -/
theorem cover0_6 (i : S20000x128.Idx) :
    ∃ t : Fin cfg0.N, (cfg0.win 6).flush t = true ∧ i ∈ ((cfg0.win 6).blk t).view.set := by
  have hi0 : (i 0).val < 20000 := (i 0).isLt
  have hi1 : (i 1).val < 128 := (i 1).isLt
  obtain ⟨t, ht⟩ := idx_onto0_6 ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- Output 6's array after grid 0. -/
theorem final0_6 (c : Dev nD) : (dat0 V c).arrAt 6 cfg0.N = G0 V c :=
  (dat0 V c).arrAt_eq_of_cover 6 (G0 V c) (fun t _ => flushed0_6 V c t) (cover0_6)

/-! ## The second grid -/

/-- The second layer of the entry arrays. -/
def G1 (c : Dev nD) : SN.Idx → EReal :=
  lin (V c main_v17_0) (V c main_v28) (V c main_arg5) (V c main_arg7) (biasOf (V c main_v29))

/-- The printed index maps over the grid, as for the first. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 4
    ∧ win1_5.index t (0 : Fin 2) = win1_5.index t (0 : Fin 2) ∧ win1_5.index t (1 : Fin 2) = 0 :=
  (by decide +kernel : ∀ t : Fin grid1.N, _)

/-- What point `t` of grid 1 writes back to output 5 is block `t` of `G1`: the block's entry `(p, q)` lands on row
    `4000 · t + p` of the array, the feature and aggregate blocks are the same 4000 rows of their arrays, and the weight and
    bias blocks are the whole arrays. -/
theorem flushed1_5 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  obtain ⟨e00, e01, e10, e11, e20, e21, e30, e31, e40, e41, e51, e5le, e60, e61⟩ := idx_facts1 t
  have hp : p.val < 4000 := p.isLt
  have hr : win1_5.index t (0 : Fin 2) * 4000 + p.val < 20000 := by omega
  have E : ((cfg1.win 5).blk t).view.emb (ix2 p q) = ix2 (⟨win1_5.index t (0 : Fin 2) * 4000 + p.val, hr⟩ : Fin 20000) q := by
    funext a; apply Fin.ext
    match a with
    | ⟨0, _⟩ => show win1_5.index t (0 : Fin 2) * 4000 + 1 * p.val = win1_5.index t (0 : Fin 2) * 4000 + p.val; omega
    | ⟨1, _⟩ => show win1_5.index t (1 : Fin 2) * 128 + 1 * q.val = q.val; omega
  have A0 : ∀ k : Fin 128, iblk1 V c 0 t (ix2 p k)
      = V c (Pipeline.arrRef spec1 0) (ix2 (⟨win1_5.index t (0 : Fin 2) * 4000 + p.val, hr⟩ : Fin 20000) k) := fun k => by
    show V c (Pipeline.arrRef spec1 0) (((cfg1.win 0).blk t).view.emb (ix2 p k)) = _
    refine congrArg _ (funext fun a => Fin.ext ?_)
    match a with
    | ⟨0, _⟩ => show win1_0.index t (0 : Fin 2) * 4000 + 1 * p.val = win1_5.index t (0 : Fin 2) * 4000 + p.val; omega
    | ⟨1, _⟩ => show win1_0.index t (1 : Fin 2) * 128 + 1 * k.val = k.val; omega
  have A1 : ∀ k : Fin 128, iblk1 V c 1 t (ix2 p k)
      = V c (Pipeline.arrRef spec1 1) (ix2 (⟨win1_5.index t (0 : Fin 2) * 4000 + p.val, hr⟩ : Fin 20000) k) := fun k => by
    show V c (Pipeline.arrRef spec1 1) (((cfg1.win 1).blk t).view.emb (ix2 p k)) = _
    refine congrArg _ (funext fun a => Fin.ext ?_)
    match a with
    | ⟨0, _⟩ => show win1_1.index t (0 : Fin 2) * 4000 + 1 * p.val = win1_5.index t (0 : Fin 2) * 4000 + p.val; omega
    | ⟨1, _⟩ => show win1_1.index t (1 : Fin 2) * 128 + 1 * k.val = k.val; omega
  have A2 : ∀ k : Fin 128, iblk1 V c 2 t (ix2 k q) = V c (Pipeline.arrRef spec1 2) (ix2 k q) := fun k => by
    show V c (Pipeline.arrRef spec1 2) (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have A3 : ∀ k : Fin 128, iblk1 V c 3 t (ix2 k q) = V c (Pipeline.arrRef spec1 3) (ix2 k q) := fun k => by
    show V c (Pipeline.arrRef spec1 3) (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have A4 : iblk1 V c 4 t (ix2 (0 : Fin 1) q) = V c (Pipeline.arrRef spec1 4) (ix2 (0 : Fin 1) q) := by
    show V c (Pipeline.arrRef spec1 4) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  show k1_pay1 (iblk1 V c 0 t) (iblk1 V c 1 t) (iblk1 V c 2 t) (iblk1 V c 3 t) (iblk1 V c 4 t) (ix2 p q)
      = G1 V c (((cfg1.win 5).blk t).view.emb (ix2 p q))
  rw [E]
  refine (pay_second _ _ _ _ _ p q).trans ?_
  unfold blockLin
  simp only [A0, A1, A2, A3, A4]
  rfl

/-- An index of the array lies in point `t`'s block of output 5 iff each coordinate lies in the block's range. -/
theorem mem_blk1_5 (t : Fin cfg1.N) (i : S20000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v30).slice (win1_5.rect t)).set ↔ _
  rw [View.set_slice_whole, Rect.mem_set_unit]
  exact Iff.rfl

/-- Every block of rows is some point's. -/
theorem idx_onto1_5 : ∀ b : Fin 5, ∃ t : Fin cfg1.N, win1_5.index t = ![b.val, 0] :=
  (by decide +kernel : ∀ b : Fin 5, ∃ t : Fin grid1.N, win1_5.index t = ![b.val, 0])

/-- The five blocks of 4000 rows cover the array: row `r` is in block `r / 4000`. -/
theorem cover1_5 (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ := idx_onto1_5 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- Output 5's array after grid 1. -/
theorem final1_5 (c : Dev nD) : (dat1 V c).arrAt 5 cfg1.N = G1 V c :=
  (dat1 V c).arrAt_eq_of_cover 5 (G1 V c) (fun t _ => flushed1_5 V c t) (cover1_5)

end Cert.KernelIdeal.GraphConv

end
-- ==== Proof.HostSide.lean ====
/-
  The host operations around the two grids, read as values.

  Before the first grid the program splits the edge list into its source and destination rows, aggregates the input
  features along the edges — gather the source rows (the index read signed, a negative one moved up by the number of
  nodes) and add them into the destination rows of a zero array — and lays the first bias out as a 1 × 128 row.
  Between the grids it aggregates the first grid's second output the same way and lays out the second bias. The
  aggregation gathers through a narrower float format and widens the gathered rows again: on the extended reals both
  changes are the identity. No operation of either stretch writes an argument or a grid's output.
-/
import proofs.«114487_j60971355734041_2_alg».proof.Proof.Gen.KernelIdeal.Frame
import Idealize.ShloMosaic.Lib.StableHlo.Run
import Idealize.ShloMosaic.PureOps.Ideal

set_option maxRecDepth 16384

noncomputable section

namespace Cert.KernelIdeal.GraphConv

open Idealize.ShloMosaic Idealize.ShloMosaic.TcCoe Cert.KernelIdeal Cert.KernelIdeal.Gen
open Idealize.SL Idealize.SL.Sem Idealize.ShloMosaic.StableHlo

/-- The edges' source nodes: row 0 of the edge list. -/
def srcOf (ei : IVec S2x640000 32) : IVec S640000 32 :=
  shapeCast S640000 (extractStridedSlice S1x640000 ![0, 0] ei slices_S2x640000_S1x640000_0_0) shapeCasts_S1x640000_S640000

/-- The edges' destination nodes: row 1 of the edge list. -/
def dstOf (ei : IVec S2x640000 32) : IVec S640000 32 :=
  shapeCast S640000 (extractStridedSlice S1x640000 ![1, 0] ei slices_S2x640000_S1x640000_1_0) shapeCasts_S1x640000_S640000

/-- The kernel program's aggregation of node features `f` from the source nodes `s` into the destination nodes `d`. -/
def aggK (s d : IVec S640000 32) (f : FVec Ideal S20000x128 .bf16) : FVec Ideal S20000x128 .f32 :=
  Host.scatterAdd (F := Ideal) (φ := .f32) scatter_S20000x128_S640000x1_S640000x128_1_0_0_1
    (broadcastInDim S20000x128 ![] bcast_S_S20000x128 (constant (F := Ideal) S_ .f32 0x00000000#32))
    (broadcastInDim S640000x1 ![0] bcast_S640000_S640000x1_0 d)
    (extf (F := Ideal) .f32
      (Host.gather gather_S20000x128_S640000x1_S640000x128_1_0_n_n_0_1_1128 f
        (broadcastInDim S640000x1 ![0] bcast_S640000_S640000x1_0
          (select (cmpi .slt s (broadcastInDim S640000 ![] bcast_S_S640000 (constantI S_ 32 0#32)))
            (addi s (broadcastInDim S640000 ![] bcast_S_S640000 (constantI S_ 32 20000#32))) s)))
      bitsLt_bf16_f32)

/-! ## The stretch before the first grid, from any contents `W` -/

section Before
variable (W : Valuation τ sig (Elt Ideal))

theorem before_src : StableHlo.after hostOps0 W (Proc.devRef .tc main_v1) = srcOf (W (Proc.devRef .tc main_arg1)) := by
  after_results; rfl
theorem before_dst : StableHlo.after hostOps0 W (Proc.devRef .tc main_v3) = dstOf (W (Proc.devRef .tc main_arg1)) := by
  after_results; rfl
theorem before_agg : StableHlo.after hostOps0 W (Proc.devRef .tc main_v15)
    = aggK (srcOf (W (Proc.devRef .tc main_arg1))) (dstOf (W (Proc.devRef .tc main_arg1))) (W (Proc.devRef .tc main_arg0)) := by
  after_results; rfl
theorem before_bias : StableHlo.after hostOps0 W (Proc.devRef .tc main_v16)
    = shapeCast S1x128 (W (Proc.devRef .tc main_arg3)) shapeCasts_S128_S1x128 := by
  after_results; rfl
theorem before_arg0 : StableHlo.after hostOps0 W (Proc.devRef .tc main_arg0) = W (Proc.devRef .tc main_arg0) := by
  after_results
theorem before_arg2 : StableHlo.after hostOps0 W (Proc.devRef .tc main_arg2) = W (Proc.devRef .tc main_arg2) := by
  after_results
theorem before_arg4 : StableHlo.after hostOps0 W (Proc.devRef .tc main_arg4) = W (Proc.devRef .tc main_arg4) := by
  after_results
theorem before_arg5 : StableHlo.after hostOps0 W (Proc.devRef .tc main_arg5) = W (Proc.devRef .tc main_arg5) := by
  after_results
theorem before_arg6 : StableHlo.after hostOps0 W (Proc.devRef .tc main_arg6) = W (Proc.devRef .tc main_arg6) := by
  after_results
theorem before_arg7 : StableHlo.after hostOps0 W (Proc.devRef .tc main_arg7) = W (Proc.devRef .tc main_arg7) := by
  after_results

end Before

/-! ## The stretch between the grids, from any contents `W` -/

section Between
variable (W : Valuation τ sig (Elt Ideal))

theorem between_agg : StableHlo.after hostOps1 W (Proc.devRef .tc main_v28)
    = aggK (W (Proc.devRef .tc main_v1)) (W (Proc.devRef .tc main_v3)) (W (Proc.devRef .tc main_v17_1)) := by
  after_results; rfl
theorem between_bias : StableHlo.after hostOps1 W (Proc.devRef .tc main_v29)
    = shapeCast S1x128 (W (Proc.devRef .tc main_arg6)) shapeCasts_S128_S1x128 := by
  after_results; rfl
theorem between_hidden : StableHlo.after hostOps1 W (Proc.devRef .tc main_v17_0) = W (Proc.devRef .tc main_v17_0) := by
  after_results
theorem between_arg5 : StableHlo.after hostOps1 W (Proc.devRef .tc main_arg5) = W (Proc.devRef .tc main_arg5) := by
  after_results
theorem between_arg7 : StableHlo.after hostOps1 W (Proc.devRef .tc main_arg7) = W (Proc.devRef .tc main_arg7) := by
  after_results

end Between

end Cert.KernelIdeal.GraphConv

end
-- ==== Proof.KernelValue.lean ====
/-
  The idealized kernel's result as the network of `Spec.lean`.

  The second grid's output is the plain layer of its entry arrays; those are the first grid's full-precision output
  (the hidden features), the aggregate of its other output — the same numbers — along the edges, and the second
  weights and bias as launched. The first grid's outputs are the rectified layer of the input features, their aggregate
  along the edges, and the first weights and bias as launched. So the result is the two-layer network over the kernel
  program's aggregation.
-/
import proofs.«114487_j60971355734041_2_alg».proof.Proof.Regions
import proofs.«114487_j60971355734041_2_alg».proof.Proof.HostSide

set_option maxRecDepth 16384

noncomputable section

namespace Cert.KernelIdeal.GraphConv

open Idealize.ShloMosaic Idealize.ShloMosaic.TcCoe Idealize.ShloMosaic.ValueIdx
open Cert.KernelIdeal Cert.KernelIdeal.Gen Cert.GraphConv
open Idealize.SL Idealize.SL.Sem Idealize.ShloMosaic.StableHlo

/-- The kernel program's aggregation along the edges `ei`, as a function of the node features. -/
def agg (ei : IVec S2x640000 32) (f : SN.Idx → EReal) : SN.Idx → EReal := aggK (srcOf ei) (dstOf ei) f

/-- A bias laid out as a 1 × 128 row reads back as the vector it was. -/
theorem bias_row (b : FVec Ideal S128 .f32) : biasOf (shapeCast S1x128 b shapeCasts_S128_S1x128) = b := by
  funext i
  show shapeCast S1x128 b shapeCasts_S128_S1x128 (ix2 (0 : Fin 1) (i 0)) = b i
  exact shapeCast_apply b shapeCasts_S128_S1x128 (ix2 (0 : Fin 1) (i 0)) i (by
    rw [Shape.rowMajor_val_one, Shape.rowMajor_val_two]; show (i 0).val = 0 * 128 + (i 0).val; omega)

variable (m : (ℓ : Loc nD τ sig) → Buf (Elt Ideal) ℓ) (ρ : Dev nD → PrngReg)

/-- The hidden features: what the first grid is entered with, through its layer. -/
theorem hidden_eq (c : Dev nD) :
    G0 (V1 m ρ) c = relu (lin (m ((c : Thread nD τ).loc main_arg0))
      (agg (m ((c : Thread nD τ).loc main_arg1)) (m ((c : Thread nD τ).loc main_arg0)))
      (m ((c : Thread nD τ).loc main_arg2)) (m ((c : Thread nD τ).loc main_arg4)) (m ((c : Thread nD τ).loc main_arg3))) := by
  have h0 : V1 m ρ c main_arg0 = m ((c : Thread nD τ).loc main_arg0) := before_arg0 (W0 m ρ c)
  have h2 : V1 m ρ c main_arg2 = m ((c : Thread nD τ).loc main_arg2) := before_arg2 (W0 m ρ c)
  have h4 : V1 m ρ c main_arg4 = m ((c : Thread nD τ).loc main_arg4) := before_arg4 (W0 m ρ c)
  have h15 : V1 m ρ c main_v15 = agg (m ((c : Thread nD τ).loc main_arg1)) (m ((c : Thread nD τ).loc main_arg0)) :=
    before_agg (W0 m ρ c)
  have h16 : biasOf (V1 m ρ c main_v16) = m ((c : Thread nD τ).loc main_arg3) :=
    (congrArg biasOf (before_bias (W0 m ρ c))).trans (bias_row _)
  unfold G0
  rw [h0, h2, h4, h15, h16]

/-- The result array: what the second grid is entered with, through its layer. -/
theorem out_eq (c : Dev nD) :
    G1 (V3 m ρ) c = lin (G0 (V1 m ρ) c) (agg (m ((c : Thread nD τ).loc main_arg1)) (G0 (V1 m ρ) c))
      (m ((c : Thread nD τ).loc main_arg5)) (m ((c : Thread nD τ).loc main_arg7)) (m ((c : Thread nD τ).loc main_arg6)) := by
  have k170 : V3 m ρ c main_v17_0 = G0 (V1 m ρ) c :=
    (between_hidden (W2 m ρ c)).trans ((W2_arr m ρ c 5).trans (final0_5 (V1 m ρ) c))
  have k171 : W2 m ρ c (Proc.devRef .tc main_v17_1) = G0 (V1 m ρ) c := (W2_arr m ρ c 6).trans (final0_6 (V1 m ρ) c)
  have ks : W2 m ρ c (Proc.devRef .tc main_v1) = srcOf (m ((c : Thread nD τ).loc main_arg1)) :=
    (W2_of_ne m ρ c main_v1 (by decide)).trans (before_src (W0 m ρ c))
  have kd : W2 m ρ c (Proc.devRef .tc main_v3) = dstOf (m ((c : Thread nD τ).loc main_arg1)) :=
    (W2_of_ne m ρ c main_v3 (by decide)).trans (before_dst (W0 m ρ c))
  have k28 : V3 m ρ c main_v28 = agg (m ((c : Thread nD τ).loc main_arg1)) (G0 (V1 m ρ) c) :=
    (between_agg (W2 m ρ c)).trans (by rw [ks, kd, k171]; rfl)
  have k5 : V3 m ρ c main_arg5 = m ((c : Thread nD τ).loc main_arg5) :=
    (between_arg5 (W2 m ρ c)).trans ((W2_of_ne m ρ c main_arg5 (by decide)).trans (before_arg5 (W0 m ρ c)))
  have k7 : V3 m ρ c main_arg7 = m ((c : Thread nD τ).loc main_arg7) :=
    (between_arg7 (W2 m ρ c)).trans ((W2_of_ne m ρ c main_arg7 (by decide)).trans (before_arg7 (W0 m ρ c)))
  have k6 : W2 m ρ c (Proc.devRef .tc main_arg6) = m ((c : Thread nD τ).loc main_arg6) :=
    (W2_of_ne m ρ c main_arg6 (by decide)).trans (before_arg6 (W0 m ρ c))
  have k29 : biasOf (V3 m ρ c main_v29) = m ((c : Thread nD τ).loc main_arg6) :=
    (congrArg biasOf ((between_bias (W2 m ρ c)).trans (by rw [k6]))).trans (bias_row _)
  unfold G1
  rw [k170, k28, k5, k7, k29]

/-- The result's buffer at the last boundary holds the network of the launch contents. -/
theorem result_value (c : Dev nD) :
    W4 m ρ c (Proc.devRef .tc main_v30)
      = net (agg (m ((c : Thread nD τ).loc main_arg1))) (m ((c : Thread nD τ).loc main_arg0))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (W4_arr m ρ c 5).trans ((final1_5 (V3 m ρ) c).trans ((out_eq m ρ c).trans (by rw [hidden_eq]; rfl)))

end Cert.KernelIdeal.GraphConv

end
-- ==== Proof.RefSide.lean ====
/-
  The reference program computes the network of `Spec.lean` over its own aggregation.

  Its aggregation `agg ei f` gathers, for every edge, row `src` of `f` (the source index read signed, a
  negative one moved up by the number of nodes) and adds the gathered rows into the rows `dst` of a zero
  array. Each of its two layers is a product of the aggregate with `W_rel`, plus the bias broadcast over the
  rows, plus a product of the features with `W_root`: at an entry these are the sums over the 128 columns that
  `linAt` states, the host's product being the plain sum over the contracted axis on the extended reals.
  The rectifier between the layers is the maximum with a zero array.
-/
import proofs.«114487_j60971355734041_2_alg».proof.Proof.Gen.ReferenceIdeal.Read
import proofs.«114487_j60971355734041_2_alg».proof.Proof.Spec

noncomputable section

namespace Cert.GraphConv.Ref

open Idealize.ShloMosaic Idealize.ShloMosaic.ValueIdx
open Cert.ReferenceIdeal Cert.ReferenceIdeal.Gen Cert.ReferenceIdeal.Read Cert.GraphConv
open scoped BigOperators

/-- The reference's aggregation of node features `f` along the edges `ei`: the rows `f[src]` added into the
    rows `dst` of a zero array. -/
def agg (ei : IVec S2x640000 32) (f : FVec Ideal S20000x128 .f32) :
    FVec Ideal S20000x128 .f32 :=
  Host.scatterAdd (F := Ideal) (φ := .f32) scatter_S20000x128_S640000x1_S640000x128_1_0_0_1 (val_main_v11 (F := Ideal)) (val_main_v12 (F := Ideal) ei)
    (Host.gather gather_S20000x128_S640000x1_S640000x128_1_0_n_n_0_1_1128 f (val_main_v9 (F := Ideal) ei))

/-- A layer as the reference spells it — the aggregate times `wrel`, plus the bias broadcast over the rows, plus the
    features times `wroot` — is `lin`: at entry `(r, j)` each product is the sum over the contracted column `k`
    of row `r` of the left factor against column `j` of the right one, and the broadcast bias is `b[j]`. -/
theorem layer_eq (f a : FVec Ideal S20000x128 .f32) (wrel wroot : FVec Ideal S128x128 .f32)
    (b : FVec Ideal S128 .f32) :
    addf (F := Ideal) (s := S20000x128) (φ := .f32) (addf (F := Ideal) (s := S20000x128) (φ := .f32) (val_main_v18 (F := Ideal) a wrel) (val_main_v16 (F := Ideal) b)) (val_main_v18 (F := Ideal) f wroot)
      = lin f a wrel wroot b := by
  funext i
  obtain ⟨r, j, rfl⟩ : ∃ (r : Fin 20000) (j : Fin 128), i = ix2 r j := ⟨i 0, i 1, eq_ix2 i⟩
  have el : ∀ k : Fin 128, lidx_main_v18 (ix2 r j) k = ix2 r k := fun k => funext fun a => by
    match a with | ⟨0, _⟩ => rfl | ⟨1, _⟩ => rfl
  have er : ∀ k : Fin 128, ridx_main_v18 (ix2 r j) k = ix2 k j := fun k => funext fun a => by
    match a with | ⟨0, _⟩ => rfl | ⟨1, _⟩ => rfl
  have eb : idx_main_v15 (idx_main_v16 (ix2 r j)) = ix1 j := funext fun a => by
    match a with | ⟨0, _⟩ => rfl
  show (val_main_v18 (F := Ideal) a wrel (ix2 r j) + val_main_v16 (F := Ideal) b (ix2 r j)) + val_main_v18 (F := Ideal) f wroot (ix2 r j)
      = linAt f a wrel wroot b r j
  rw [val_main_v18_apply, val_main_v18_apply, val_main_v16_apply, val_main_v15_apply]
  simp only [el, er, eb]
  rfl

/-- The first layer before its activation. -/
theorem pre_hidden (x0 : FVec Ideal S20000x128 .f32) (x1 : IVec S2x640000 32)
    (x2 : FVec Ideal S128x128 .f32) (x3 : FVec Ideal S128 .f32)
    (x4 : FVec Ideal S128x128 .f32) :
    val_main_v19 (F := Ideal) x0 x1 x2 x3 x4 = lin x0 (agg x1 x0) x2 x4 x3 :=
  (show val_main_v19 (F := Ideal) x0 x1 x2 x3 x4
      = addf (F := Ideal) (s := S20000x128) (φ := .f32) (addf (F := Ideal) (s := S20000x128) (φ := .f32) (val_main_v18 (F := Ideal) (agg x1 x0) x2) (val_main_v16 (F := Ideal) x3)) (val_main_v18 (F := Ideal) x0 x4) from rfl).trans
    (layer_eq x0 (agg x1 x0) x2 x4 x3)

/-- The hidden features: the rectified first layer. -/
theorem hidden (x0 : FVec Ideal S20000x128 .f32) (x1 : IVec S2x640000 32)
    (x2 : FVec Ideal S128x128 .f32) (x3 : FVec Ideal S128 .f32)
    (x4 : FVec Ideal S128x128 .f32) :
    val_main_v20 (F := Ideal) x0 x1 x2 x3 x4 = relu (lin x0 (agg x1 x0) x2 x4 x3) := by
  funext i
  rw [val_main_v20_apply, pre_hidden, val_main_call0_v0_apply, val_main_call0_cst_apply]
  show max (lin x0 (agg x1 x0) x2 x4 x3 i) (Ideal.ofBits .f32 0x00000000#32) = max (lin x0 (agg x1 x0) x2 x4 x3 i) 0
  rw [Ideal.ofBits_zero_f32]

/-- The second aggregate is the same aggregation, of the hidden features. -/
theorem agg_hidden (x0 : FVec Ideal S20000x128 .f32) (x1 : IVec S2x640000 32)
    (x2 : FVec Ideal S128x128 .f32) (x3 : FVec Ideal S128 .f32)
    (x4 : FVec Ideal S128x128 .f32) :
    val_main_v30 (F := Ideal) x0 x1 x2 x3 x4 = agg x1 (val_main_v20 (F := Ideal) x0 x1 x2 x3 x4) := rfl

/-- The reference's result is the network over its aggregation. -/
theorem result_eq (x0 : FVec Ideal S20000x128 .f32) (x1 : IVec S2x640000 32)
    (x2 : FVec Ideal S128x128 .f32) (x3 : FVec Ideal S128 .f32)
    (x4 x5 : FVec Ideal S128x128 .f32) (x6 : FVec Ideal S128 .f32)
    (x7 : FVec Ideal S128x128 .f32) :
    val_main_v36 (F := Ideal) x0 x1 x2 x3 x4 x5 x6 x7 = net (agg x1) x0 x2 x3 x4 x5 x6 x7 := by
  have e : val_main_v36 (F := Ideal) x0 x1 x2 x3 x4 x5 x6 x7
      = addf (F := Ideal) (s := S20000x128) (φ := .f32) (addf (F := Ideal) (s := S20000x128) (φ := .f32) (val_main_v18 (F := Ideal) (val_main_v30 (F := Ideal) x0 x1 x2 x3 x4) x5) (val_main_v16 (F := Ideal) x6))
          (val_main_v18 (F := Ideal) (val_main_v20 (F := Ideal) x0 x1 x2 x3 x4) x7) := rfl
  rw [e, layer_eq, agg_hidden, hidden]
  rfl

end Cert.GraphConv.Ref

end
-- ==== Proof.Bridge.lean ====
/-
  The two programs aggregate alike.

  Both split the edge list into the same source and destination rows, move a negative source index up by the number
  of nodes, gather the source rows and add them into the destination rows of a zero array. The kernel program
  gathers through a narrower float format and widens the gathered rows again; on the extended reals both changes are
  the identity, so its gathered rows are the reference's and the two aggregations are one function.
-/
import proofs.«114487_j60971355734041_2_alg».proof.Proof.KernelValue
import proofs.«114487_j60971355734041_2_alg».proof.Proof.RefSide

set_option maxRecDepth 16384

noncomputable section

namespace Cert.GraphConv

open Idealize.ShloMosaic

/-- The kernel program's aggregation is the reference's. -/
theorem agg_eq (ei : IVec Cert.KernelIdeal.S2x640000 32) :
    Cert.KernelIdeal.GraphConv.agg ei = Cert.GraphConv.Ref.agg ei := by
  funext f
  rfl

end Cert.GraphConv

end
-- ==== Proof.lean ====
/-
  Two stacked graph-convolution layers: a kernel program against its reference, on the extended reals.

  The kernel program aggregates neighbour features on the host (gather the edges' source rows, add them into the
  destination rows) and runs each layer's two products, bias and (for the first layer) rectifier on a grid over blocks
  of 4000 node rows; the reference writes the same network with whole-array operations. On the extended reals a change
  of float format is the identity and every matrix product is the plain sum over the contracted column, so both compute
  `Spec.lean`'s network over one aggregation: equal results, entry by entry, with no appeal to finiteness.
-/
import proofs.«114487_j60971355734041_2_alg».proof.Defs
import proofs.«114487_j60971355734041_2_alg».proof.Proof.Gen.Kernel
import proofs.«114487_j60971355734041_2_alg».proof.Proof.Gen.Kernel.Frame
import proofs.«114487_j60971355734041_2_alg».proof.Proof.Gen.KernelIdeal
import proofs.«114487_j60971355734041_2_alg».proof.Proof.Gen.KernelIdeal.Frame
import proofs.«114487_j60971355734041_2_alg».proof.Proof.Gen.ReferenceIdeal
import proofs.«114487_j60971355734041_2_alg».proof.Proof.Gen.ReferenceIdeal.Run
import proofs.«114487_j60971355734041_2_alg».proof.Proof.Gen.ReferenceIdeal.Read
import proofs.«114487_j60971355734041_2_alg».proof.Proof.Gen.Pre_finite_inputs
import proofs.«114487_j60971355734041_2_alg».proof.Proof.KernelRun
import proofs.«114487_j60971355734041_2_alg».proof.Proof.KernelValue
import proofs.«114487_j60971355734041_2_alg».proof.Proof.RefSide
import proofs.«114487_j60971355734041_2_alg».proof.Proof.Bridge

set_option maxRecDepth 16384

noncomputable section

namespace Cert.Proof

open Idealize.ShloMosaic Idealize.ShloMosaic.TcCoe Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference's run, with its result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the arguments both programs end with the network of the arguments over the one
    aggregation. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.GraphConv.net (Cert.KernelIdeal.GraphConv.agg (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.GraphConv.result_value m ρ c), (h c).2⟩)
      (Cert.KernelIdeal.GraphConv.run_result (F := Ideal) m ρ)
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v36 m' c = Cert.GraphConv.net (Cert.KernelIdeal.GraphConv.agg (m ((c.tc : Thread Cert.KernelIdeal.nD Cert.KernelIdeal.τ).loc Cert.KernelIdeal.main_arg1))) _ _ _ _ _ _ _
    rw [Cert.ReferenceIdeal.Read.val_main_v36_eq, Cert.GraphConv.Ref.result_eq, Cert.GraphConv.agg_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
